-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024 .f32) (main_arg5 : FVec F S1024x1024 .f32) (main_arg6 : FVec F S1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S1x1024 : Shape := ⟨2, ![1, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 19
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8x4096x1024, .f32⟩
  | .local _ .vmem, ⟨0, _⟩ => ⟨S8x128x1024, .f32⟩
  | .local _ .vmem, ⟨1, _⟩ => ⟨S8x128x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S8x128x1024, .f32⟩
  | .local _ .vmem, ⟨10, _⟩ => ⟨S8x128x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S8x128x1024_S1x128x1024_0_0_0 : ∀ a, (![0, 0, 0] : Fin 3 → Nat) a + S1x128x1024.size a ≤ S8x128x1024.size a
  h_S1x128x1024 : 0 < S1x128x1024.numel
  shapeCasts_S1x128x1024_S128x1024 : S1x128x1024.ShapeCasts S128x1024
  broadcasts_S1x1024_S128x1024 : S1x1024.Broadcasts S128x1024
  inb_S8x128x1024_S1x128x1024_1_0_0 : ∀ a, (![1, 0, 0] : Fin 3 → Nat) a + S1x128x1024.size a ≤ S8x128x1024.size a
  inb_S8x128x1024_S1x128x1024_2_0_0 : ∀ a, (![2, 0, 0] : Fin 3 → Nat) a + S1x128x1024.size a ≤ S8x128x1024.size a
  inb_S8x128x1024_S1x128x1024_3_0_0 : ∀ a, (![3, 0, 0] : Fin 3 → Nat) a + S1x128x1024.size a ≤ S8x128x1024.size a
  inb_S8x128x1024_S1x128x1024_4_0_0 : ∀ a, (![4, 0, 0] : Fin 3 → Nat) a + S1x128x1024.size a ≤ S8x128x1024.size a
  inb_S8x128x1024_S1x128x1024_5_0_0 : ∀ a, (![5, 0, 0] : Fin 3 → Nat) a + S1x128x1024.size a ≤ S8x128x1024.size a
  inb_S8x128x1024_S1x128x1024_6_0_0 : ∀ a, (![6, 0, 0] : Fin 3 → Nat) a + S1x128x1024.size a ≤ S8x128x1024.size a
  inb_S8x128x1024_S1x128x1024_7_0_0 : ∀ a, (![7, 0, 0] : Fin 3 → Nat) a + S1x128x1024.size a ≤ S8x128x1024.size a
  shapeCasts_S128x1024_S1x128x1024 : S128x1024.ShapeCasts S1x128x1024
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x4096x1024.size a
  hwx0_0 : ∀ i : grid0.Coords, EltTy.bits .f32 = 32 ∨ (Rect.block (s := S8x4096x1024) S8x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128x1024.size a ≤ S8x4096x1024.size a
  hwx0_8 : ∀ i : grid0.Coords, EltTy.bits .f32 = 32 ∨ (Rect.block (s := S8x4096x1024) S8x128x1024.size (cc0_transform_8 i) (hinb0_8 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S8x128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4096x1024 : Shape := ⟨2, ![4096, 1024]⟩
abbrev S1x4096x1024 : Shape := ⟨3, ![1, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x4096x1024, .f32⟩
  | .hbm, ⟨9, _⟩ => ⟨S1x1x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S4096x1024, .f32⟩
  | .hbm, ⟨34, _⟩ => ⟨S8x4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S1x4096x1024, .f32⟩
  | .hbm, ⟨39, _⟩ => ⟨S8x4096x1024, .f32⟩
  | .hbm, ⟨40, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S8x4096x1024_S4096x1024_d0 : S8x4096x1024.ReducesTo [0] S4096x1024
  h_S_ : 0 < S_.numel
  bcast_S4096x1024_S1x4096x1024_1_2 : S4096x1024.BroadcastsInDim S1x4096x1024 (![1, 2] : Fin 2 → Fin S1x4096x1024.rank)
  bcast_S1x4096x1024_S8x4096x1024_0_1_2 : S1x4096x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.AftRow.lean ====
/-
  AFT attention, one time step, on the extended reals.

  For a fixed time step the layer sees the eight batch rows `X b : Fin 1024 → EReal` of the input and computes, for
  every batch row `b` and every output feature `h`,

      σ(q b h) · ( Σ_k e k h · v k h ) / ( Σ_k e k h ),        e k h = exp (κ k h + w h),

  where `q`, `κ`, `v` are the three affine maps `lin (X k) W β h = Σ_d X k d · W h d + β h` (query, key, value) and
  `σ x = 1 / (1 + exp (-x))`. The sums over `k` run over the BATCH axis: the weights `e` are normalised across the batch,
  and the same weighted mean multiplies every batch row's gate `σ(q b h)`.

  `row` is that function; `G` is the whole `[8, 4096, 1024]` result array it gives, time step by time step, from the
  argument arrays. Everything is stated with the operations of the extended reals the idealized programs use
  (`Ideal.exp`, `Ideal.div`, `Ideal.logistic`), so no finiteness is assumed anywhere: the two programs are compared as
  the same expression, up to the order in which a sum of eight terms is accumulated.
-/
import Idealize.ShloMosaic.PureOps.Ideal
import Idealize.ShloMosaic.PureOps.Ideal.Laws
import Idealize.ShloMosaic.Lib.ValueIdx

noncomputable section

namespace Cert.Aft

open Idealize.ShloMosaic Idealize.ShloMosaic.ValueIdx

/-- An affine map of a row: `Σ_d X d · W h d + β h` (the weight matrix is indexed output feature first). -/
def lin (X : Fin 1024 → EReal) (W : Fin 1024 → Fin 1024 → EReal) (β : Fin 1024 → EReal) (h : Fin 1024) : EReal :=
  (∑ d : Fin 1024, X d * W h d) + β h

/-- One time step of the layer: the gate of batch row `b` times the batch-normalised weighted mean of the values. -/
def row (X : Fin 8 → Fin 1024 → EReal) (Wq Wk Wv : Fin 1024 → Fin 1024 → EReal) (bq bk bv w : Fin 1024 → EReal)
    (b : Fin 8) (h : Fin 1024) : EReal :=
  Ideal.logistic (lin (X b) Wq bq h)
    * Ideal.div (∑ k : Fin 8, Ideal.exp (lin (X k) Wk bk h + w h) * lin (X k) Wv bv h)
        (∑ k : Fin 8, Ideal.exp (lin (X k) Wk bk h + w h))

/-- The result array: entry `(b, t, h)` is `row` of the eight input rows at time step `t`. -/
def G (x : (⟨3, ![8, 4096, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (w : (⟨1, ![1024]⟩ : Shape).Idx → EReal) : (⟨3, ![8, 4096, 1024]⟩ : Shape).Idx → EReal :=
  fun i => row (fun b d => x (ix3 b (i 1 : Fin 4096) d))
    (fun h d => Wq (ix2 h d)) (fun h d => Wk (ix2 h d)) (fun h d => Wv (ix2 h d))
    (fun h => bq (ix1 h)) (fun h => bk (ix1 h)) (fun h => bv (ix1 h)) (fun h => w (ix1 h))
    (i 0 : Fin 8) (i 2 : Fin 1024)

/-- Eight terms added one after the other onto zero are their sum. -/
theorem fold8 (f : Fin 8 → EReal) :
    0 + f 0 + f 1 + f 2 + f 3 + f 4 + f 5 + f 6 + f 7 = ∑ k : Fin 8, f k := by
  rw [Fin.sum_univ_eight, zero_add]

/-- The single-precision word `0x3F800000` is the number one. -/
theorem ofBits_one : Ideal.ofBits .f32 0x3F800000#32 = 1 := by
  simp [Ideal.ofBits, Ideal.ieee, -EReal.coe_mul]; norm_num

/-- The gate written out with its own operations, `1 / (1 + exp (-x))`, is `Ideal.logistic`. -/
theorem logistic_spelled (x : EReal) :
    Ideal.div (Ideal.ofBits .f32 0x3F800000#32) (Ideal.ofBits .f32 0x3F800000#32 + Ideal.exp (-x)) = Ideal.logistic x := by
  rw [ofBits_one]; rfl

end Cert.Aft

end
-- ==== Proof.ReferenceRows.lean ====
/-
  The reference, entry by entry, is `Cert.Aft.G`.

  The reference computes the three affine maps as whole `[8, 4096, 1024]` arrays (a contraction over the feature axis
  against the weight matrix, the bias added after two broadcasts), the gate as `1 / (1 + exp (-q))` spelled with the
  constant one, the weights `exp (κ + w)`, their sum and the weighted sum of the values over the BATCH axis (each a
  reduction from zero), the quotient, and the product with the gate after broadcasting the quotient back over the batch.
  Read at an entry `(b, t, h)` each of these is the corresponding piece of `Cert.Aft.row` for time step `t`: the
  contractions are `lin`, the spelled gate is `Ideal.logistic`, a reduction from zero is the plain sum over the eight
  batch rows. Nothing is rearranged on this side; the generated read-at-an-index lemmas are chained and the index maps they
  compose are identified with the coordinates `(b, t, h)`.
-/
import proofs.«106952_j18657337934229_1_alg».proof.Proof.Gen.ReferenceIdeal.Read
import proofs.«106952_j18657337934229_1_alg».proof.Proof.AftRow

noncomputable section

namespace Cert.ReferenceIdeal.Rows

open Cert.ReferenceIdeal Cert.ReferenceIdeal.Read Cert.Aft Idealize.ShloMosaic Idealize.ShloMosaic.ValueIdx

/-- The reference's query map at an entry: the contraction over the input features of row `(b, t)` against row `h` of the
    weight matrix, plus the bias at `h` (the bias reaches the entry through two broadcasts that only copy it). -/
theorem query_eq (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (i : S8x4096x1024.Idx) :
    val_main_v3 (F := Ideal) x0 x1 x2 i
      = lin (fun d => x0 (ix3 (i 0 : Fin 8) (i 1 : Fin 4096) d)) (fun h d => x1 (ix2 h d)) (fun h => x2 (ix1 h)) (i 2 : Fin 1024) := by
  rw [val_main_v3_apply, val_main_v0_apply, val_main_v2_apply, val_main_v1_apply]
  have hl : ∀ k, lidx_main_v0 i k = ix3 (i 0 : Fin 8) (i 1 : Fin 4096) k := fun k => funext fun a => by
    match a with | ⟨0, _⟩ => rfl | ⟨1, _⟩ => rfl | ⟨2, _⟩ => rfl
  have hr : ∀ k, ridx_main_v0 i k = ix2 (i 2 : Fin 1024) k := fun k => funext fun a => by
    match a with | ⟨0, _⟩ => rfl | ⟨1, _⟩ => rfl
  have hb : idx_main_v1 (idx_main_v2 i) = ix1 (i 2 : Fin 1024) := funext fun a => by
    match a with | ⟨0, _⟩ => rfl
  rw [hb]
  exact congrArg (· + x2 (ix1 (i 2 : Fin 1024))) (Finset.sum_congr rfl fun k _ => by rw [hl k, hr k]; rfl)

/-- The reference's key map at an entry: the contraction over the input features of row `(b, t)` against row `h` of the
    weight matrix, plus the bias at `h` (the bias reaches the entry through two broadcasts that only copy it). -/
theorem key_eq (x0 : (⟨S8x4096x1024, .f32⟩ : BufTy).Contents (Elt Ideal)) (x3 : (⟨S1024x1024, .f32⟩ : BufTy).Contents (Elt Ideal)) (x4 : (⟨S1024, .f32⟩ : BufTy).Contents (Elt Ideal)) (i : S8x4096x1024.Idx) :
    val_main_v7 (F := Ideal) x0 x3 x4 i
      = lin (fun d => x0 (ix3 (i 0 : Fin 8) (i 1 : Fin 4096) d)) (fun h d => x3 (ix2 h d)) (fun h => x4 (ix1 h)) (i 2 : Fin 1024) := by
  rw [val_main_v7_apply, val_main_v4_apply, val_main_v6_apply, val_main_v5_apply]
  have hl : ∀ k, lidx_main_v4 i k = ix3 (i 0 : Fin 8) (i 1 : Fin 4096) k := fun k => funext fun a => by
    match a with | ⟨0, _⟩ => rfl | ⟨1, _⟩ => rfl | ⟨2, _⟩ => rfl
  have hr : ∀ k, ridx_main_v4 i k = ix2 (i 2 : Fin 1024) k := fun k => funext fun a => by
    match a with | ⟨0, _⟩ => rfl | ⟨1, _⟩ => rfl
  have hb : idx_main_v5 (idx_main_v6 i) = ix1 (i 2 : Fin 1024) := funext fun a => by
    match a with | ⟨0, _⟩ => rfl
  rw [hb]
  exact congrArg (· + x4 (ix1 (i 2 : Fin 1024))) (Finset.sum_congr rfl fun k _ => by rw [hl k, hr k]; rfl)

/-- The reference's value map at an entry: the contraction over the input features of row `(b, t)` against row `h` of the
    weight matrix, plus the bias at `h` (the bias reaches the entry through two broadcasts that only copy it). -/
theorem value_eq (x0 : (⟨S8x4096x1024, .f32⟩ : BufTy).Contents (Elt Ideal)) (x5 : (⟨S1024x1024, .f32⟩ : BufTy).Contents (Elt Ideal)) (x6 : (⟨S1024, .f32⟩ : BufTy).Contents (Elt Ideal)) (i : S8x4096x1024.Idx) :
    val_main_v11 (F := Ideal) x0 x5 x6 i
      = lin (fun d => x0 (ix3 (i 0 : Fin 8) (i 1 : Fin 4096) d)) (fun h d => x5 (ix2 h d)) (fun h => x6 (ix1 h)) (i 2 : Fin 1024) := by
  rw [val_main_v11_apply, val_main_v8_apply, val_main_v10_apply, val_main_v9_apply]
  have hl : ∀ k, lidx_main_v8 i k = ix3 (i 0 : Fin 8) (i 1 : Fin 4096) k := fun k => funext fun a => by
    match a with | ⟨0, _⟩ => rfl | ⟨1, _⟩ => rfl | ⟨2, _⟩ => rfl
  have hr : ∀ k, ridx_main_v8 i k = ix2 (i 2 : Fin 1024) k := fun k => funext fun a => by
    match a with | ⟨0, _⟩ => rfl | ⟨1, _⟩ => rfl
  have hb : idx_main_v9 (idx_main_v10 i) = ix1 (i 2 : Fin 1024) := funext fun a => by
    match a with | ⟨0, _⟩ => rfl
  rw [hb]
  exact congrArg (· + x6 (ix1 (i 2 : Fin 1024))) (Finset.sum_congr rfl fun k _ => by rw [hl k, hr k]; rfl)

/-- The reference's gate, `1 / (1 + exp (-q))` with the constant one broadcast, is the logistic function of the query. -/
theorem gate_eq (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (i : S8x4096x1024.Idx) :
    val_main_v17 (F := Ideal) x0 x1 x2 i = Ideal.logistic (val_main_v3 (F := Ideal) x0 x1 x2 i) := by
  rw [val_main_v17_apply, val_main_v16_apply, val_main_cst_0_apply, val_main_v15_apply, val_main_v14_apply,
    val_main_cst_apply, val_main_v13_apply, val_main_v12_apply]
  exact logistic_spelled _

/-- The reference's weight at an entry: the exponential of the key plus the position bias at `h`. -/
theorem weight_eq (x0 : (⟨S8x4096x1024, .f32⟩ : BufTy).Contents (Elt Ideal)) (x3 : (⟨S1024x1024, .f32⟩ : BufTy).Contents (Elt Ideal)) (x4 x7 : (⟨S1024, .f32⟩ : BufTy).Contents (Elt Ideal)) (i : S8x4096x1024.Idx) :
    val_main_v21 (F := Ideal) x0 x3 x4 x7 i
      = Ideal.exp (val_main_v7 (F := Ideal) x0 x3 x4 i + x7 (ix1 (i 2 : Fin 1024))) := by
  rw [val_main_v21_apply, val_main_v20_apply, val_main_v19_apply, val_main_v18_apply]
  have hb : idx_main_v18 (idx_main_v19 i) = ix1 (i 2 : Fin 1024) := funext fun a => by
    match a with | ⟨0, _⟩ => rfl
  rw [hb]
  rfl

/-- The normaliser at `(t, h)`: the reduction from zero over the batch axis is the sum of the eight weights. -/
theorem normaliser_eq (x0 : (⟨S8x4096x1024, .f32⟩ : BufTy).Contents (Elt Ideal)) (x3 : (⟨S1024x1024, .f32⟩ : BufTy).Contents (Elt Ideal)) (x4 x7 : (⟨S1024, .f32⟩ : BufTy).Contents (Elt Ideal)) (j : S4096x1024.Idx) :
    val_main_v22 (F := Ideal) x0 x3 x4 x7 j
      = ∑ k : Fin 8, val_main_v21 (F := Ideal) x0 x3 x4 x7 (ix3 k (j 0) (j 1) : S8x4096x1024.Idx) := by
  rw [val_main_v22_apply, val_main_cst_1_apply]
  show Ideal.ofBits .f32 0x00000000#32 + _ = _
  rw [Ideal.ofBits_zero_f32, zero_add]
  exact Finset.sum_congr rfl fun k _ => congrArg _ (funext fun a => by
    match a with | ⟨0, _⟩ => rfl | ⟨1, _⟩ => rfl | ⟨2, _⟩ => rfl)

/-- The weighted sum of the values at `(t, h)`, likewise a sum over the eight batch rows. -/
theorem weighted_eq (x0 : (⟨S8x4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 x7 : (⟨S1024, .f32⟩ : BufTy).Contents (Elt Ideal)) (j : S4096x1024.Idx) :
    val_main_v24 (F := Ideal) x0 x3 x4 x5 x6 x7 j
      = ∑ k : Fin 8, val_main_v21 (F := Ideal) x0 x3 x4 x7 (ix3 k (j 0) (j 1) : S8x4096x1024.Idx)
          * val_main_v11 (F := Ideal) x0 x5 x6 (ix3 k (j 0) (j 1) : S8x4096x1024.Idx) := by
  rw [val_main_v24_apply, val_main_cst_2_apply]
  show Ideal.ofBits .f32 0x00000000#32 + _ = _
  rw [Ideal.ofBits_zero_f32, zero_add]
  refine Finset.sum_congr rfl fun k _ => ?_
  have hi : idx_main_v24 j k = (ix3 k (j 0) (j 1) : S8x4096x1024.Idx) := funext fun a => by
    match a with | ⟨0, _⟩ => rfl | ⟨1, _⟩ => rfl | ⟨2, _⟩ => rfl
  rw [hi, val_main_v23_apply]
  rfl

/-- THE REFERENCE'S RESULT is `G` of its arguments: at `(b, t, h)` the gate of row `b` times the quotient of the two
    batch sums at `(t, h)`, which the last two broadcasts copy to every batch row. -/
theorem result_eq (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 x7 : (⟨S1024, .f32⟩ : BufTy).Contents (Elt Ideal)) :
    val_main_v28 (F := Ideal) x0 x1 x2 x3 x4 x5 x6 x7 = G x0 x1 x2 x3 x4 x5 x6 x7 := by
  funext i
  rw [val_main_v28_apply, val_main_v27_apply, val_main_v26_apply, val_main_v25_apply, gate_eq, query_eq, weighted_eq,
    normaliser_eq]
  simp only [weight_eq, key_eq, value_eq]
  rfl

end Cert.ReferenceIdeal.Rows

end
-- ==== Proof.KernelBlock.lean ====
/-
  One grid point of the kernel: what its eight stores leave in the output block, as `Cert.Aft.row`.

  At a grid point the body holds a block of 128 time steps: the input block `x0 : [8, 128, 1024]` (all eight batch rows,
  all features), the three weight matrices already transposed (`[feature, output]`), and the three biases and the position
  bias as one-row matrices. It walks the batch axis: for batch row `b` it takes the slab `x0[b]`, forms the three affine
  maps by a matrix product on a zero accumulator plus the broadcast bias row, adds `exp (κ + w)` onto a running sum that
  starts at zero, adds `exp (κ + w) · v` onto another, and keeps the gate `σ(q)`. After the eighth row it divides the two
  running sums and stores, for every batch row, gate × quotient through the rectangle `[b, 0, 0] + [1, 128, 1024]`.

  Entry `(b, r, h)` of the block is therefore `row` of the eight rows `x0[·, r, ·]`: the matrix product on a zero
  accumulator is the contraction of `lin`, and a running sum from zero over eight terms is their sum (`fold8`).
  The eight rectangles tile the block, so the block is read piece by piece (`View.canon_apply_of_pieces`).
-/
import proofs.«106952_j18657337934229_1_alg».proof.Proof.Gen.KernelIdeal.Frame
import proofs.«106952_j18657337934229_1_alg».proof.Proof.AftRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.Aft Idealize.ShloMosaic Idealize.ShloMosaic.ValueIdx

/-! ## The accessors: a block operand as the functions `row` is stated over -/

/-- A transposed weight block `[feature, output]` read output feature first. -/
abbrev byOutput (W : FVec Ideal S1024x1024 .bf16) : Fin 1024 → Fin 1024 → EReal := fun h d => W (ix2 d h)

/-- A one-row matrix read as a vector. -/
abbrev theRow (β : FVec Ideal S1x1024 .f32) : Fin 1024 → EReal := fun h => β (ix2 (0 : Fin 1) h)

/-- Time step `r` of one batch row's slab `[1, 128, 1024]`: its 1024 features. -/
abbrev features (s : Vec Ideal S1x128x1024 .f32) (r : Fin 128) : Fin 1024 → EReal := fun d => s (ix3 (0 : Fin 1) r d)

/-! ## One batch row's slab -/

/-- The affine map the body forms from a slab: the slab viewed `[128, 1024]` (its change of float format is the identity
    here), multiplied with the weight block on a zero accumulator, plus the bias row broadcast over the 128 time steps. -/
def affine (s : Vec Ideal S1x128x1024 .f32) (W : FVec Ideal S1024x1024 .bf16) (β : FVec Ideal S1x1024 .f32) :
    FVec Ideal S128x1024 .f32 :=
  addf (matmul dot_S128x1024_S1024x1024_S128x1024_1_0_0_1_n_n none
      (truncf .bf16 (shapeCast S128x1024 s shapeCasts_S1x128x1024_S128x1024) bitsLt_bf16_f32) W
      (constant S128x1024 .f32 0x00000000#32))
    (broadcastTo S128x1024 β broadcasts_S1x1024_S128x1024)

/-- The coordinates of the matrix product's operand indices: the left operand is read at the result's time step and the
    contracted position, -/
theorem lhs_step (j : S128x1024.Idx) (q : dot_S128x1024_S1024x1024_S128x1024_1_0_0_1_n_n.contr.Idx) : (dot_S128x1024_S1024x1024_S128x1024_1_0_0_1_n_n.lhsIdx j q 0).val = (j 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl
theorem lhs_contracted (j : S128x1024.Idx) (q : dot_S128x1024_S1024x1024_S128x1024_1_0_0_1_n_n.contr.Idx) :
    (dot_S128x1024_S1024x1024_S128x1024_1_0_0_1_n_n.lhsIdx j q 1).val = (q ⟨0, by decide⟩).val :=
  dot_S128x1024_S1024x1024_S128x1024_1_0_0_1_n_n.lhsIdx_val_of_single rfl j q
/-- the right operand at the contracted position and the result's output feature. -/
theorem rhs_contracted (j : S128x1024.Idx) (q : dot_S128x1024_S1024x1024_S128x1024_1_0_0_1_n_n.contr.Idx) :
    (dot_S128x1024_S1024x1024_S128x1024_1_0_0_1_n_n.rhsIdx j q 0).val = (q ⟨0, by decide⟩).val :=
  dot_S128x1024_S1024x1024_S128x1024_1_0_0_1_n_n.rhsIdx_val_of_single rfl j q
theorem rhs_output (j : S128x1024.Idx) (q : dot_S128x1024_S1024x1024_S128x1024_1_0_0_1_n_n.contr.Idx) : (dot_S128x1024_S1024x1024_S128x1024_1_0_0_1_n_n.rhsIdx j q 1).val = (j 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- So at result `(r, h)` and contracted position `k` the left index is `(r, k)`, -/
theorem lhs_at (r : Fin 128) (h k : Fin 1024) :
    dot_S128x1024_S1024x1024_S128x1024_1_0_0_1_n_n.lhsIdx (ix2 r h) ((contrEquiv1 dot_S128x1024_S1024x1024_S128x1024_1_0_0_1_n_n 1024 rfl rfl).symm k) = ix2 r k :=
  funext fun a => Fin.ext (by
    match a with
    | ⟨0, _⟩ => exact lhs_step _ _
    | ⟨1, _⟩ => exact (lhs_contracted _ _).trans (contrEquiv1_symm_val dot_S128x1024_S1024x1024_S128x1024_1_0_0_1_n_n 1024 rfl rfl k))

/-- and the right index is `(k, h)`. -/
theorem rhs_at (r : Fin 128) (h k : Fin 1024) :
    dot_S128x1024_S1024x1024_S128x1024_1_0_0_1_n_n.rhsIdx (ix2 r h) ((contrEquiv1 dot_S128x1024_S1024x1024_S128x1024_1_0_0_1_n_n 1024 rfl rfl).symm k) = ix2 k h :=
  funext fun a => Fin.ext (by
    match a with
    | ⟨0, _⟩ => exact (rhs_contracted _ _).trans (contrEquiv1_symm_val dot_S128x1024_S1024x1024_S128x1024_1_0_0_1_n_n 1024 rfl rfl k)
    | ⟨1, _⟩ => exact rhs_output _ _)

/-- So the slab's affine map at time step `r`, output feature `h` is `lin` of that time step's features. -/
theorem affine_apply (s : Vec Ideal S1x128x1024 .f32) (W : FVec Ideal S1024x1024 .bf16) (β : FVec Ideal S1x1024 .f32)
    (r : Fin 128) (h : Fin 1024) :
    affine s W β (ix2 r h) = lin (features s r) (byOutput W) (theRow β) h := by
  unfold affine lin
  show FloatOps.matmul dot_S128x1024_S1024x1024_S128x1024_1_0_0_1_n_n none _ W (constant S128x1024 .f32 0x00000000#32) (ix2 r h)
      + broadcastTo S128x1024 β broadcasts_S1x1024_S128x1024 (ix2 r h) = _
  rw [Ideal.matmul_constant_zero_apply, broadcastTo_1b_ab_apply,
    ← Equiv.sum_comp (contrEquiv1 dot_S128x1024_S1024x1024_S128x1024_1_0_0_1_n_n 1024 rfl rfl).symm]
  refine congrArg (· + β (ix2 (0 : Fin 1) h)) (Finset.sum_congr rfl fun k _ => ?_)
  rw [lhs_at, rhs_at, truncf_apply, shapeCast_1ab_ab_apply]

/-- The weight of a batch row: the exponential of its key plus the position bias row. -/
def weight (s : Vec Ideal S1x128x1024 .f32) (W : FVec Ideal S1024x1024 .bf16) (β w : FVec Ideal S1x1024 .f32) :
    FVec Ideal S128x1024 .f32 :=
  exp (addf (affine s W β) (broadcastTo S128x1024 w broadcasts_S1x1024_S128x1024))

theorem weight_apply (s : Vec Ideal S1x128x1024 .f32) (W : FVec Ideal S1024x1024 .bf16) (β w : FVec Ideal S1x1024 .f32)
    (r : Fin 128) (h : Fin 1024) :
    weight s W β w (ix2 r h) = Ideal.exp (lin (features s r) (byOutput W) (theRow β) h + theRow w h) := by
  unfold weight
  show Ideal.exp (addf (affine s W β) (broadcastTo S128x1024 w broadcasts_S1x1024_S128x1024) (ix2 r h)) = _
  rw [addf_apply, affine_apply, broadcastTo_1b_ab_apply]

/-- Batch row `b`'s slab, loaded through the rectangle `[b, 0, 0] + [1, 128, 1024]` of the input block, holds at
    `(0, r, d)` the block's entry `(b, r, d)`. -/
theorem slab_features (x0 : Vec Ideal S8x128x1024 .f32) (b : Fin 8)
    (inb : ∀ a, (![b.val, 0, 0] : Fin 3 → Nat) a + S1x128x1024.size a ≤ S8x128x1024.size a) (r : Fin 128) :
    features (View.ld x0 (Rect.unit (s := S8x128x1024) ![b.val, 0, 0] S1x128x1024.size inb)) r
      = fun d => x0 (ix3 b r d) := by
  funext d
  show x0 ((Rect.unit (s := S8x128x1024) ![b.val, 0, 0] S1x128x1024.size inb).emb (ix3 (0 : Fin 1) r d)) = _
  refine congrArg x0 (funext fun a => Fin.ext ?_)
  rw [Rect.emb_apply]
  match a with
  | ⟨0, _⟩ => show b.val + 1 * 0 = b.val; omega
  | ⟨1, _⟩ => show 0 + 1 * r.val = r.val; omega
  | ⟨2, _⟩ => show 0 + 1 * d.val = d.val; omega

/-! ## The eight batch rows together -/

/-- The quotient the body ends with: both running sums start at the zero splat and take the batch rows in order. -/
def mean (s0 s1 s2 s3 s4 s5 s6 s7 : Vec Ideal S1x128x1024 .f32) (Wk : FVec Ideal S1024x1024 .bf16) (βk : FVec Ideal S1x1024 .f32)
    (Wv : FVec Ideal S1024x1024 .bf16) (βv w : FVec Ideal S1x1024 .f32) : FVec Ideal S128x1024 .f32 :=
  divf
    (addf (addf (addf (addf (addf (addf (addf (addf (broadcast S128x1024 (Scalar.ofBits (F := Ideal) .f32 0x00000000#32))
        (mulf (weight s0 Wk βk w) (affine s0 Wv βv)))
        (mulf (weight s1 Wk βk w) (affine s1 Wv βv)))
        (mulf (weight s2 Wk βk w) (affine s2 Wv βv)))
        (mulf (weight s3 Wk βk w) (affine s3 Wv βv)))
        (mulf (weight s4 Wk βk w) (affine s4 Wv βv)))
        (mulf (weight s5 Wk βk w) (affine s5 Wv βv)))
        (mulf (weight s6 Wk βk w) (affine s6 Wv βv)))
        (mulf (weight s7 Wk βk w) (affine s7 Wv βv)))
    (addf (addf (addf (addf (addf (addf (addf (addf (broadcast S128x1024 (Scalar.ofBits (F := Ideal) .f32 0x00000000#32))
        (weight s0 Wk βk w))
        (weight s1 Wk βk w))
        (weight s2 Wk βk w))
        (weight s3 Wk βk w))
        (weight s4 Wk βk w))
        (weight s5 Wk βk w))
        (weight s6 Wk βk w))
        (weight s7 Wk βk w))

/-- At `(r, h)` it is the weighted sum of the eight values over the sum of the eight weights, whatever rows `X` the slabs
    hold at time step `r`. -/
theorem mean_apply (s0 s1 s2 s3 s4 s5 s6 s7 : Vec Ideal S1x128x1024 .f32) (Wk : FVec Ideal S1024x1024 .bf16) (βk : FVec Ideal S1x1024 .f32)
    (Wv : FVec Ideal S1024x1024 .bf16) (βv w : FVec Ideal S1x1024 .f32) (X : Fin 8 → Fin 1024 → EReal) (r : Fin 128) (h : Fin 1024)
    (h0 : features s0 r = X 0) (h1 : features s1 r = X 1) (h2 : features s2 r = X 2) (h3 : features s3 r = X 3)
    (h4 : features s4 r = X 4) (h5 : features s5 r = X 5) (h6 : features s6 r = X 6) (h7 : features s7 r = X 7) :
    mean s0 s1 s2 s3 s4 s5 s6 s7 Wk βk Wv βv w (ix2 r h)
      = Ideal.div (∑ k : Fin 8, Ideal.exp (lin (X k) (byOutput Wk) (theRow βk) h + theRow w h) * lin (X k) (byOutput Wv) (theRow βv) h)
          (∑ k : Fin 8, Ideal.exp (lin (X k) (byOutput Wk) (theRow βk) h + theRow w h)) := by
  unfold mean
  rw [divf_apply]
  simp only [addf_apply, mulf_apply, broadcast_apply, weight_apply, affine_apply]
  rw [h0, h1, h2, h3, h4, h5, h6, h7]
  show Ideal.div (Ideal.ofBits .f32 0x00000000#32 + _ + _ + _ + _ + _ + _ + _ + _)
    (Ideal.ofBits .f32 0x00000000#32 + _ + _ + _ + _ + _ + _ + _ + _) = _
  rw [Ideal.ofBits_zero_f32]
  exact congrArg₂ Ideal.div
    (fold8 fun k => Ideal.exp (lin (X k) (byOutput Wk) (theRow βk) h + theRow w h) * lin (X k) (byOutput Wv) (theRow βv) h)
    (fold8 fun k => Ideal.exp (lin (X k) (byOutput Wk) (theRow βk) h + theRow w h))

/-- What is stored for one batch row: its gate times the quotient, given a leading unit axis. -/
def gated (s : Vec Ideal S1x128x1024 .f32) (Wq : FVec Ideal S1024x1024 .bf16) (βq : FVec Ideal S1x1024 .f32)
    (M : FVec Ideal S128x1024 .f32) : FVec Ideal S1x128x1024 .f32 :=
  shapeCast S1x128x1024 (mulf (logistic (affine s Wq βq)) M) shapeCasts_S128x1024_S1x128x1024

theorem gated_apply (s : Vec Ideal S1x128x1024 .f32) (Wq : FVec Ideal S1024x1024 .bf16) (βq : FVec Ideal S1x1024 .f32)
    (M : FVec Ideal S128x1024 .f32) (u : Fin 1) (r : Fin 128) (h : Fin 1024) :
    gated s Wq βq M (ix3 u r h) = Ideal.logistic (lin (features s r) (byOutput Wq) (theRow βq) h) * M (ix2 r h) := by
  unfold gated
  rw [shapeCast_ab_1ab_apply, mulf_apply]
  show Ideal.logistic (affine s Wq βq (ix2 r h)) * _ = _
  rw [affine_apply]

/-- The block the grid point writes, entry by entry: `row` of the eight rows the input block holds at that time step. -/
def blockFn (x0 : Vec Ideal S8x128x1024 .f32) (Wq : FVec Ideal S1024x1024 .bf16) (βq : FVec Ideal S1x1024 .f32)
    (Wk : FVec Ideal S1024x1024 .bf16) (βk : FVec Ideal S1x1024 .f32) (Wv : FVec Ideal S1024x1024 .bf16)
    (βv w : FVec Ideal S1x1024 .f32) : Vec Ideal S8x128x1024 .f32 :=
  fun y => row (fun b d => x0 (ix3 b (y 1 : Fin 128) d)) (byOutput Wq) (byOutput Wk) (byOutput Wv)
    (theRow βq) (theRow βk) (theRow βv) (theRow w) (y 0 : Fin 8) (y 2 : Fin 1024)

/-- The rectangle of batch row `b`. -/
abbrev rowRect (b : Fin 8) (inb : ∀ a, (![b.val, 0, 0] : Fin 3 → Nat) a + S1x128x1024.size a ≤ S8x128x1024.size a) :
    Rect S8x128x1024 := Rect.unit (s := S8x128x1024) ![b.val, 0, 0] S1x128x1024.size inb

/-- ONE STORE: the piece stored through batch row `b`'s rectangle is the block function on that rectangle. -/
theorem piece (x0 : Vec Ideal S8x128x1024 .f32) (Wq : FVec Ideal S1024x1024 .bf16) (βq : FVec Ideal S1x1024 .f32)
    (Wk : FVec Ideal S1024x1024 .bf16) (βk : FVec Ideal S1x1024 .f32) (Wv : FVec Ideal S1024x1024 .bf16)
    (βv w : FVec Ideal S1x1024 .f32) (b : Fin 8)
    (inb : ∀ a, (![b.val, 0, 0] : Fin 3 → Nat) a + S1x128x1024.size a ≤ S8x128x1024.size a) (z : S1x128x1024.Idx) :
    gated (View.ld x0 (rowRect b inb)) Wq βq
        (mean (View.ld x0 r0_2) (View.ld x0 r0_3) (View.ld x0 r0_4) (View.ld x0 r0_5) (View.ld x0 r0_6) (View.ld x0 r0_7)
          (View.ld x0 r0_8) (View.ld x0 r0_9) Wk βk Wv βv w) z
      = blockFn x0 Wq βq Wk βk Wv βv w ((rowRect b inb).emb z) := by
  obtain ⟨u, r, h, rfl⟩ : ∃ (u : Fin 1) (r : Fin 128) (h : Fin 1024), z = ix3 u r h := ⟨z 0, z 1, z 2, eq_ix3 z⟩
  have hemb : (rowRect b inb).emb (ix3 u r h) = ix3 b r h := funext fun a => Fin.ext (by
    rw [Rect.emb_apply]
    match a with
    | ⟨0, _⟩ => show b.val + 1 * u.val = b.val; omega
    | ⟨1, _⟩ => show 0 + 1 * r.val = r.val; omega
    | ⟨2, _⟩ => show 0 + 1 * h.val = h.val; omega)
  rw [hemb, gated_apply,
    mean_apply (View.ld x0 r0_2) (View.ld x0 r0_3) (View.ld x0 r0_4) (View.ld x0 r0_5) (View.ld x0 r0_6) (View.ld x0 r0_7)
      (View.ld x0 r0_8) (View.ld x0 r0_9) Wk βk Wv βv w (fun k d => x0 (ix3 k r d)) r h
      (slab_features x0 0 _ r) (slab_features x0 1 _ r) (slab_features x0 2 _ r) (slab_features x0 3 _ r)
      (slab_features x0 4 _ r) (slab_features x0 5 _ r) (slab_features x0 6 _ r) (slab_features x0 7 _ r),
    slab_features x0 b inb r]
  rfl

/-! ## The whole block -/

theorem origin2 : (![0, 0] : Fin 2 → Nat) = fun _ => 0 := funext fun a => by fin_cases a <;> rfl

/-- The operands the body loads whole (the three weight blocks, the four one-row matrices) are loaded as they are: the
    load's rectangle is the whole buffer and the cast is to the same shape. -/
theorem whole_Wq (x : Vec Ideal S1024x1024 .bf16) : k0_pay2 (View.ld x r0_0) = x := by
  show shapeCast S1024x1024 (View.ld x r0_0) shapeCasts_S1024x1024_S1024x1024 = x
  rw [View.ld_unit_zero (S := S1024x1024) origin2]
  exact shapeCast_self x _
theorem whole_Wk (x : Vec Ideal S1024x1024 .bf16) : k0_pay3 (View.ld x r0_0) = x := by
  show shapeCast S1024x1024 (View.ld x r0_0) shapeCasts_S1024x1024_S1024x1024 = x
  rw [View.ld_unit_zero (S := S1024x1024) origin2]
  exact shapeCast_self x _
theorem whole_Wv (x : Vec Ideal S1024x1024 .bf16) : k0_pay4 (View.ld x r0_0) = x := by
  show shapeCast S1024x1024 (View.ld x r0_0) shapeCasts_S1024x1024_S1024x1024 = x
  rw [View.ld_unit_zero (S := S1024x1024) origin2]
  exact shapeCast_self x _
theorem whole_bq (x : Vec Ideal S1x1024 .f32) : k0_pay5 (View.ld x r0_1) = x := by
  show shapeCast S1x1024 (View.ld x r0_1) shapeCasts_S1x1024_S1x1024 = x
  rw [View.ld_unit_zero (S := S1x1024) origin2]
  exact shapeCast_self x _
theorem whole_bk (x : Vec Ideal S1x1024 .f32) : k0_pay6 (View.ld x r0_1) = x := by
  show shapeCast S1x1024 (View.ld x r0_1) shapeCasts_S1x1024_S1x1024 = x
  rw [View.ld_unit_zero (S := S1x1024) origin2]
  exact shapeCast_self x _
theorem whole_bv (x : Vec Ideal S1x1024 .f32) : k0_pay7 (View.ld x r0_1) = x := by
  show shapeCast S1x1024 (View.ld x r0_1) shapeCasts_S1x1024_S1x1024 = x
  rw [View.ld_unit_zero (S := S1x1024) origin2]
  exact shapeCast_self x _
theorem whole_w (x : Vec Ideal S1x1024 .f32) : k0_pay8 (View.ld x r0_1) = x := by
  show shapeCast S1x1024 (View.ld x r0_1) shapeCasts_S1x1024_S1x1024 = x
  rw [View.ld_unit_zero (S := S1x1024) origin2]
  exact shapeCast_self x _

/-- THE BLOCK a grid point writes, from the blocks it reads: the body's eight stores, one per batch row, are each the
    block function on their rectangle (`piece`: every payload of the body is, by unfolding, `gated` of that row's slab
    and `mean` of the eight slabs), and the rectangles tile the block. -/
theorem block_eq (x0 : Vec Ideal S8x128x1024 .f32) (x1 : Vec Ideal S1024x1024 .bf16) (x2 : Vec Ideal S1x1024 .f32)
    (x3 : Vec Ideal S1024x1024 .bf16) (x4 : Vec Ideal S1x1024 .f32) (x5 : Vec Ideal S1024x1024 .bf16)
    (x6 : Vec Ideal S1x1024 .f32) (x7 : Vec Ideal S1x1024 .f32) :
    out0_8 x0 x1 x2 x3 x4 x5 x6 x7 = blockFn x0 x1 x2 x3 x4 x5 x6 x7 := by
  have key : out0_8 x0 x1 x2 x3 x4 x5 x6 x7
      = blockFn x0 (k0_pay2 (View.ld x1 r0_0)) (k0_pay5 (View.ld x2 r0_1)) (k0_pay3 (View.ld x3 r0_0)) (k0_pay6 (View.ld x4 r0_1))
          (k0_pay4 (View.ld x5 r0_0)) (k0_pay7 (View.ld x6 r0_1)) (k0_pay8 (View.ld x7 r0_1)) := by
    funext y
    unfold out0_8
    refine View.canon_apply_of_pieces
      (blockFn x0 (k0_pay2 (View.ld x1 r0_0)) (k0_pay5 (View.ld x2 r0_1)) (k0_pay3 (View.ld x3 r0_0)) (k0_pay6 (View.ld x4 r0_1))
          (k0_pay4 (View.ld x5 r0_0)) (k0_pay7 (View.ld x6 r0_1)) (k0_pay8 (View.ld x7 r0_1))) _ ?_ y
      (cover0_8 _ _ _ _ _ _ _ _ y)
    intro p hp
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 7 _
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 6 _
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 5 _
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 4 _
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 3 _
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 2 _
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 1 _
    rcases List.mem_cons.1 hp with rfl | hp
    · exact piece x0 (k0_pay2 (View.ld x1 r0_0)) (k0_pay5 (View.ld x2 r0_1)) (k0_pay3 (View.ld x3 r0_0)) (k0_pay6 (View.ld x4 r0_1))
        (k0_pay4 (View.ld x5 r0_0)) (k0_pay7 (View.ld x6 r0_1)) (k0_pay8 (View.ld x7 r0_1)) 0 _
    exact absurd hp List.not_mem_nil
  rw [key, whole_Wq, whole_Wk, whole_Wv, whole_bq, whole_bk, whole_bv, whole_w]

/-! ## The block function is `G` on the block's part of the array -/

/-- If the input block holds the array's rows of a time step (`hx`), the weight blocks are the weight matrices
    transposed (`hq`, `hk`, `hv`) and the one-row matrices are the bias vectors (`hbq` … `hw`), then the block function at a
    block entry `y` is `G` at the array entry `i` with the same batch row and output feature: both are `row` of the same
    eight rows, weights and biases. -/
theorem blockFn_eq_G (x : (⟨3, ![8, 4096, 1024]⟩ : Shape).Idx → EReal) (Wq : (⟨2, ![1024, 1024]⟩ : Shape).Idx → EReal) (bq : (⟨1, ![1024]⟩ : Shape).Idx → EReal) (Wk : (⟨2, ![1024, 1024]⟩ : Shape).Idx → EReal) (bk : (⟨1, ![1024]⟩ : Shape).Idx → EReal) (Wv : (⟨2, ![1024, 1024]⟩ : Shape).Idx → EReal) (bv : (⟨1, ![1024]⟩ : Shape).Idx → EReal) (w : (⟨1, ![1024]⟩ : Shape).Idx → EReal)
    (x0 : Vec Ideal S8x128x1024 .f32) (x1 : FVec Ideal S1024x1024 .bf16) (x2 : FVec Ideal S1x1024 .f32)
    (x3 : FVec Ideal S1024x1024 .bf16) (x4 : FVec Ideal S1x1024 .f32) (x5 : FVec Ideal S1024x1024 .bf16)
    (x6 x7 : FVec Ideal S1x1024 .f32) (y : S8x128x1024.Idx) (i : (⟨3, ![8, 4096, 1024]⟩ : Shape).Idx)
    (hb : (i 0).val = (y 0).val) (hh : (i 2).val = (y 2).val)
    (hx : ∀ (b : Fin 8) (d : Fin 1024), x0 (ix3 b (y 1 : Fin 128) d) = x (ix3 b (i 1 : Fin 4096) d))
    (hq : ∀ h d : Fin 1024, x1 (ix2 d h) = Wq (ix2 h d)) (hbq : ∀ h : Fin 1024, x2 (ix2 (0 : Fin 1) h) = bq (ix1 h))
    (hk : ∀ h d : Fin 1024, x3 (ix2 d h) = Wk (ix2 h d)) (hbk : ∀ h : Fin 1024, x4 (ix2 (0 : Fin 1) h) = bk (ix1 h))
    (hv : ∀ h d : Fin 1024, x5 (ix2 d h) = Wv (ix2 h d)) (hbv : ∀ h : Fin 1024, x6 (ix2 (0 : Fin 1) h) = bv (ix1 h))
    (hw : ∀ h : Fin 1024, x7 (ix2 (0 : Fin 1) h) = w (ix1 h)) :
    blockFn x0 x1 x2 x3 x4 x5 x6 x7 y = G x Wq bq Wk bk Wv bv w i := by
  have e0 : (i 0 : Fin 8) = (y 0 : Fin 8) := Fin.ext hb
  have e2 : (i 2 : Fin 1024) = (y 2 : Fin 1024) := Fin.ext hh
  have hX : (fun (b : Fin 8) (d : Fin 1024) => x0 (ix3 b (y 1 : Fin 128) d)) = fun b d => x (ix3 b (i 1 : Fin 4096) d) :=
    funext fun b => funext fun d => hx b d
  have hWq : byOutput x1 = fun h d => Wq (ix2 h d) := funext fun h => funext fun d => hq h d
  have hWk : byOutput x3 = fun h d => Wk (ix2 h d) := funext fun h => funext fun d => hk h d
  have hWv : byOutput x5 = fun h d => Wv (ix2 h d) := funext fun h => funext fun d => hv h d
  have hBq : theRow x2 = fun h => bq (ix1 h) := funext hbq
  have hBk : theRow x4 = fun h => bk (ix1 h) := funext hbk
  have hBv : theRow x6 = fun h => bv (ix1 h) := funext hbv
  have hW : theRow x7 = fun h => w (ix1 h) := funext hw
  show row (fun b d => x0 (ix3 b (y 1 : Fin 128) d)) (byOutput x1) (byOutput x3) (byOutput x5)
      (theRow x2) (theRow x4) (theRow x6) (theRow x7) (y 0 : Fin 8) (y 2 : Fin 1024)
    = row (fun b d => x (ix3 b (i 1 : Fin 4096) d)) (fun h d => Wq (ix2 h d)) (fun h d => Wk (ix2 h d)) (fun h d => Wv (ix2 h d))
      (fun h => bq (ix1 h)) (fun h => bk (ix1 h)) (fun h => bv (ix1 h)) (fun h => w (ix1 h)) (i 0 : Fin 8) (i 2 : Fin 1024)
  rw [hX, hWq, hWk, hWv, hBq, hBk, hBv, hW, e0, e2]

end Cert.KernelIdeal.Block

end
-- ==== Proof.KernelWhole.lean ====
/-
  From grid points to the whole result array.

  The grid has 32 points; point `t` owns time steps `128 t … 128 t + 127`. Its input block is the input array's rows of
  those time steps (all batch rows, all features); its weight and bias blocks are the whole operands, which the host
  prepared before the launch: each weight matrix transposed, each bias vector and the position bias reshaped to one row.
  Its output block, `KernelIdeal.Block.block_eq`, is `row` of its input block — hence block `t` of `Cert.Aft.G` of the
  ARGUMENT arrays. The 32 blocks tile the `[8, 4096, 1024]` result (time step `s` lies in block `s / 128`), so after the run
  the result array is `G` of the arguments.
-/
import proofs.«106952_j18657337934229_1_alg».proof.Proof.Gen.KernelIdeal.Value
import proofs.«106952_j18657337934229_1_alg».proof.Proof.KernelBlock
import Idealize.ShloMosaic.Lib.StableHlo.Run
import Idealize.ShloMosaic.Lib.ValueLayout

noncomputable section

namespace Cert.KernelIdeal.Whole

open Cert.KernelIdeal Cert.KernelIdeal.Gen Cert.KernelIdeal.Block Cert.Aft
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The operands the host prepared, as the region finds them -/

/-- The query weight operand enters the region as the weight matrix transposed (its change of float format is the
    identity here): entry `(d, h)` is the matrix's `(h, d)`. -/
theorem entry_Wq (c : Dev nD) (d h : Fin 1024) :
    (V m c main_v1 : S1024x1024.Idx → EReal) (ix2 d h) = (m ((c : Thread nD τ).loc main_arg1) : S1024x1024.Idx → EReal) (ix2 h d) := by
  have e : (V m c main_v1 : S1024x1024.Idx → EReal)
      = truncf (F := Ideal) .bf16 (transpose S1024x1024 [1, 0] (m ((c : Thread nD τ).loc main_arg1)) transposes_S1024x1024_S1024x1024_1_0) bitsLt_bf16_f32 := by
    unfold V; after_results
  rw [e, truncf_apply, transpose_ix2_apply]
/-- The key weight operand enters the region as the weight matrix transposed (its change of float format is the
    identity here): entry `(d, h)` is the matrix's `(h, d)`. -/
theorem entry_Wk (c : Dev nD) (d h : Fin 1024) :
    (V m c main_v3 : S1024x1024.Idx → EReal) (ix2 d h) = (m ((c : Thread nD τ).loc main_arg3) : S1024x1024.Idx → EReal) (ix2 h d) := by
  have e : (V m c main_v3 : S1024x1024.Idx → EReal)
      = truncf (F := Ideal) .bf16 (transpose S1024x1024 [1, 0] (m ((c : Thread nD τ).loc main_arg3)) transposes_S1024x1024_S1024x1024_1_0) bitsLt_bf16_f32 := by
    unfold V; after_results
  rw [e, truncf_apply, transpose_ix2_apply]
/-- The value weight operand enters the region as the weight matrix transposed (its change of float format is the
    identity here): entry `(d, h)` is the matrix's `(h, d)`. -/
theorem entry_Wv (c : Dev nD) (d h : Fin 1024) :
    (V m c main_v5 : S1024x1024.Idx → EReal) (ix2 d h) = (m ((c : Thread nD τ).loc main_arg5) : S1024x1024.Idx → EReal) (ix2 h d) := by
  have e : (V m c main_v5 : S1024x1024.Idx → EReal)
      = truncf (F := Ideal) .bf16 (transpose S1024x1024 [1, 0] (m ((c : Thread nD τ).loc main_arg5)) transposes_S1024x1024_S1024x1024_1_0) bitsLt_bf16_f32 := by
    unfold V; after_results
  rw [e, truncf_apply, transpose_ix2_apply]
/-- The query bias enters the region as a one-row matrix: entry `(0, h)` is the vector's `h`. -/
theorem entry_bq (c : Dev nD) (h : Fin 1024) :
    (V m c main_v6 : S1x1024.Idx → EReal) (ix2 (0 : Fin 1) h) = (m ((c : Thread nD τ).loc main_arg2) : S1024.Idx → EReal) (ix1 h) := by
  have e : (V m c main_v6 : S1x1024.Idx → EReal) = shapeCast S1x1024 (m ((c : Thread nD τ).loc main_arg2)) shapeCasts_S1024_S1x1024 := by
    unfold V; after_results; rfl
  rw [e, shapeCast_a_1a_apply]
/-- The key bias enters the region as a one-row matrix: entry `(0, h)` is the vector's `h`. -/
theorem entry_bk (c : Dev nD) (h : Fin 1024) :
    (V m c main_v7 : S1x1024.Idx → EReal) (ix2 (0 : Fin 1) h) = (m ((c : Thread nD τ).loc main_arg4) : S1024.Idx → EReal) (ix1 h) := by
  have e : (V m c main_v7 : S1x1024.Idx → EReal) = shapeCast S1x1024 (m ((c : Thread nD τ).loc main_arg4)) shapeCasts_S1024_S1x1024 := by
    unfold V; after_results; rfl
  rw [e, shapeCast_a_1a_apply]
/-- The value bias enters the region as a one-row matrix: entry `(0, h)` is the vector's `h`. -/
theorem entry_bv (c : Dev nD) (h : Fin 1024) :
    (V m c main_v8 : S1x1024.Idx → EReal) (ix2 (0 : Fin 1) h) = (m ((c : Thread nD τ).loc main_arg6) : S1024.Idx → EReal) (ix1 h) := by
  have e : (V m c main_v8 : S1x1024.Idx → EReal) = shapeCast S1x1024 (m ((c : Thread nD τ).loc main_arg6)) shapeCasts_S1024_S1x1024 := by
    unfold V; after_results; rfl
  rw [e, shapeCast_a_1a_apply]
/-- The position bias enters the region as a one-row matrix: entry `(0, h)` is the vector's `h`. -/
theorem entry_w (c : Dev nD) (h : Fin 1024) :
    (V m c main_v9 : S1x1024.Idx → EReal) (ix2 (0 : Fin 1) h) = (m ((c : Thread nD τ).loc main_arg7) : S1024.Idx → EReal) (ix1 h) := by
  have e : (V m c main_v9 : S1x1024.Idx → EReal) = shapeCast S1x1024 (m ((c : Thread nD τ).loc main_arg7)) shapeCasts_S1024_S1x1024 := by
    unfold V; after_results; rfl
  rw [e, shapeCast_a_1a_apply]

/-! ## The blocks of a grid point -/

/-- The printed index maps, decided over the 32 grid points: the input block moves with the output block along the time
    axis and nowhere else; every other operand's block stays at the origin. -/
theorem block_index : ∀ t : Fin cfg0.N,
    win0_0.index t (0 : Fin 3) = 0 ∧ win0_0.index t (1 : Fin 3) = win0_8.index t (1 : Fin 3) ∧ win0_0.index t (2 : Fin 3) = 0
    ∧ win0_8.index t (0 : Fin 3) = 0 ∧ win0_8.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every run of 128 time steps is some grid point's. -/
theorem block_onto : ∀ q : Fin 32, ∃ t : Fin cfg0.N, win0_8.index t = ![0, q.val, 0] :=
  (by decide +kernel : ∀ q : Fin 32, ∃ t : Fin grid0.N, win0_8.index t = ![0, q.val, 0])

/-- The input block at point `t`: at `(b, r, d)` the input array's entry at the time step the output block has at `r`. -/
theorem x_block (c : Dev nD) (t : Fin cfg0.N) (y : S8x128x1024.Idx) (b : Fin 8) (d : Fin 1024) :
    iblk m c 0 t (ix3 b (y 1 : Fin 128) d)
      = (m ((c : Thread nD τ).loc main_arg0) : S8x4096x1024.Idx → EReal)
          (ix3 b ((((cfg0.win 8).blk t).view.emb y) 1 : Fin 4096) d) := by
  obtain ⟨e0, e1, e2, -⟩ := block_index t
  show (V m c main_arg0 : S8x4096x1024.Idx → EReal) (((cfg0.win 0).blk t).view.emb (ix3 b (y 1 : Fin 128) d)) = _
  rw [V_main_arg0]
  refine congrArg (m ((c : Thread nD τ).loc main_arg0) : S8x4096x1024.Idx → EReal) (funext fun a => Fin.ext ?_)
  match a with
  | ⟨0, _⟩ => show win0_0.index t (0 : Fin 3) * 8 + 1 * b.val = b.val; omega
  | ⟨1, _⟩ =>
    show win0_0.index t (1 : Fin 3) * 128 + 1 * (y 1).val = win0_8.index t (1 : Fin 3) * 128 + 1 * (y 1).val
    omega
  | ⟨2, _⟩ => show win0_0.index t (2 : Fin 3) * 1024 + 1 * d.val = d.val; omega

/-- The query weight block at any grid point is the whole operand. -/
theorem Wq_block (c : Dev nD) (t : Fin cfg0.N) (h d : Fin 1024) :
    iblk m c 1 t (ix2 d h) = (m ((c : Thread nD τ).loc main_arg1) : S1024x1024.Idx → EReal) (ix2 h d) := by
  obtain ⟨-, -, -, -, -, e0, e1, -, -, -, -, -, -, -, -, -, -, -, -⟩ := block_index t
  show (V m c main_v1 : S1024x1024.Idx → EReal) (((cfg0.win 1).blk t).view.emb (ix2 d h)) = _
  have hi : ((cfg0.win 1).blk t).view.emb (ix2 d h) = ix2 d h := funext fun a => Fin.ext (by
    match a with
    | ⟨0, _⟩ => show win0_1.index t (0 : Fin 2) * 1024 + 1 * d.val = d.val; omega
    | ⟨1, _⟩ => show win0_1.index t (1 : Fin 2) * 1024 + 1 * h.val = h.val; omega)
  rw [hi, entry_Wq]
/-- The key weight block at any grid point is the whole operand. -/
theorem Wk_block (c : Dev nD) (t : Fin cfg0.N) (h d : Fin 1024) :
    iblk m c 3 t (ix2 d h) = (m ((c : Thread nD τ).loc main_arg3) : S1024x1024.Idx → EReal) (ix2 h d) := by
  obtain ⟨-, -, -, -, -, -, -, -, -, e0, e1, -, -, -, -, -, -, -, -⟩ := block_index t
  show (V m c main_v3 : S1024x1024.Idx → EReal) (((cfg0.win 3).blk t).view.emb (ix2 d h)) = _
  have hi : ((cfg0.win 3).blk t).view.emb (ix2 d h) = ix2 d h := funext fun a => Fin.ext (by
    match a with
    | ⟨0, _⟩ => show win0_3.index t (0 : Fin 2) * 1024 + 1 * d.val = d.val; omega
    | ⟨1, _⟩ => show win0_3.index t (1 : Fin 2) * 1024 + 1 * h.val = h.val; omega)
  rw [hi, entry_Wk]
/-- The value weight block at any grid point is the whole operand. -/
theorem Wv_block (c : Dev nD) (t : Fin cfg0.N) (h d : Fin 1024) :
    iblk m c 5 t (ix2 d h) = (m ((c : Thread nD τ).loc main_arg5) : S1024x1024.Idx → EReal) (ix2 h d) := by
  obtain ⟨-, -, -, -, -, -, -, -, -, -, -, -, -, e0, e1, -, -, -, -⟩ := block_index t
  show (V m c main_v5 : S1024x1024.Idx → EReal) (((cfg0.win 5).blk t).view.emb (ix2 d h)) = _
  have hi : ((cfg0.win 5).blk t).view.emb (ix2 d h) = ix2 d h := funext fun a => Fin.ext (by
    match a with
    | ⟨0, _⟩ => show win0_5.index t (0 : Fin 2) * 1024 + 1 * d.val = d.val; omega
    | ⟨1, _⟩ => show win0_5.index t (1 : Fin 2) * 1024 + 1 * h.val = h.val; omega)
  rw [hi, entry_Wv]
/-- The query bias block at any grid point is the whole one-row operand. -/
theorem bq_block (c : Dev nD) (t : Fin cfg0.N) (h : Fin 1024) :
    iblk m c 2 t (ix2 (0 : Fin 1) h) = (m ((c : Thread nD τ).loc main_arg2) : S1024.Idx → EReal) (ix1 h) := by
  obtain ⟨-, -, -, -, -, -, -, e0, e1, -, -, -, -, -, -, -, -, -, -⟩ := block_index t
  show (V m c main_v6 : S1x1024.Idx → EReal) (((cfg0.win 2).blk t).view.emb (ix2 (0 : Fin 1) h)) = _
  have hi : ((cfg0.win 2).blk t).view.emb (ix2 (0 : Fin 1) h) = ix2 (0 : Fin 1) h := funext fun a => Fin.ext (by
    match a with
    | ⟨0, _⟩ => show win0_2.index t (0 : Fin 2) * 1 + 1 * 0 = 0; omega
    | ⟨1, _⟩ => show win0_2.index t (1 : Fin 2) * 1024 + 1 * h.val = h.val; omega)
  rw [hi, entry_bq]
/-- The key bias block at any grid point is the whole one-row operand. -/
theorem bk_block (c : Dev nD) (t : Fin cfg0.N) (h : Fin 1024) :
    iblk m c 4 t (ix2 (0 : Fin 1) h) = (m ((c : Thread nD τ).loc main_arg4) : S1024.Idx → EReal) (ix1 h) := by
  obtain ⟨-, -, -, -, -, -, -, -, -, -, -, e0, e1, -, -, -, -, -, -⟩ := block_index t
  show (V m c main_v7 : S1x1024.Idx → EReal) (((cfg0.win 4).blk t).view.emb (ix2 (0 : Fin 1) h)) = _
  have hi : ((cfg0.win 4).blk t).view.emb (ix2 (0 : Fin 1) h) = ix2 (0 : Fin 1) h := funext fun a => Fin.ext (by
    match a with
    | ⟨0, _⟩ => show win0_4.index t (0 : Fin 2) * 1 + 1 * 0 = 0; omega
    | ⟨1, _⟩ => show win0_4.index t (1 : Fin 2) * 1024 + 1 * h.val = h.val; omega)
  rw [hi, entry_bk]
/-- The value bias block at any grid point is the whole one-row operand. -/
theorem bv_block (c : Dev nD) (t : Fin cfg0.N) (h : Fin 1024) :
    iblk m c 6 t (ix2 (0 : Fin 1) h) = (m ((c : Thread nD τ).loc main_arg6) : S1024.Idx → EReal) (ix1 h) := by
  obtain ⟨-, -, -, -, -, -, -, -, -, -, -, -, -, -, -, e0, e1, -, -⟩ := block_index t
  show (V m c main_v8 : S1x1024.Idx → EReal) (((cfg0.win 6).blk t).view.emb (ix2 (0 : Fin 1) h)) = _
  have hi : ((cfg0.win 6).blk t).view.emb (ix2 (0 : Fin 1) h) = ix2 (0 : Fin 1) h := funext fun a => Fin.ext (by
    match a with
    | ⟨0, _⟩ => show win0_6.index t (0 : Fin 2) * 1 + 1 * 0 = 0; omega
    | ⟨1, _⟩ => show win0_6.index t (1 : Fin 2) * 1024 + 1 * h.val = h.val; omega)
  rw [hi, entry_bv]
/-- The position bias block at any grid point is the whole one-row operand. -/
theorem w_block (c : Dev nD) (t : Fin cfg0.N) (h : Fin 1024) :
    iblk m c 7 t (ix2 (0 : Fin 1) h) = (m ((c : Thread nD τ).loc main_arg7) : S1024.Idx → EReal) (ix1 h) := by
  obtain ⟨-, -, -, -, -, -, -, -, -, -, -, -, -, -, -, -, -, e0, e1⟩ := block_index t
  show (V m c main_v9 : S1x1024.Idx → EReal) (((cfg0.win 7).blk t).view.emb (ix2 (0 : Fin 1) h)) = _
  have hi : ((cfg0.win 7).blk t).view.emb (ix2 (0 : Fin 1) h) = ix2 (0 : Fin 1) h := funext fun a => Fin.ext (by
    match a with
    | ⟨0, _⟩ => show win0_7.index t (0 : Fin 2) * 1 + 1 * 0 = 0; omega
    | ⟨1, _⟩ => show win0_7.index t (1 : Fin 2) * 1024 + 1 * h.val = h.val; omega)
  rw [hi, entry_w]

/-! ## What a grid point writes back, and the array after the run -/

/-- WHAT POINT `t` WRITES BACK is block `t` of `G` of the argument arrays. -/
theorem flushed_eq (c : Dev nD) (t : Fin cfg0.N) :
    (dats m 0 c).flushed 8 t
      = ((cfg0.win 8).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed8, block_eq]
  obtain ⟨-, -, -, e0, e2, -⟩ := block_index t
  funext y
  show blockFn (iblk m c 0 t) (iblk m c 1 t) (iblk m c 2 t) (iblk m c 3 t) (iblk m c 4 t) (iblk m c 5 t) (iblk m c 6 t)
      (iblk m c 7 t) y
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y)
  refine blockFn_eq_G _ _ _ _ _ _ _ _ _ _ _ _ _ _ _ _ y _ ?_ ?_ (x_block m c t y) (Wq_block m c t) (bq_block m c t)
    (Wk_block m c t) (bk_block m c t) (Wv_block m c t) (bv_block m c t) (w_block m c t)
  · show win0_8.index t (0 : Fin 3) * 8 + 1 * (y 0).val = (y 0).val; omega
  · show win0_8.index t (2 : Fin 3) * 1024 + 1 * (y 2).val = (y 2).val; omega

/-- An entry of the result is in point `t`'s block iff each coordinate is in the block's range on its axis. -/
theorem mem_block (t : Fin cfg0.N) (i : S8x4096x1024.Idx) :
    i ∈ ((cfg0.win 8).blk t).view.set ↔ ∀ a : Fin 3, win0_8.index t a * S8x128x1024.size a ≤ (i a).val
      ∧ (i a).val < win0_8.index t a * S8x128x1024.size a + S8x128x1024.size a := by
  show i ∈ ((View.whole main_v10).slice (win0_8.rect t)).set ↔ _
  rw [View.set_slice_whole, Rect.mem_set_unit]
  exact Iff.rfl

/-- The 32 blocks cover the result: time step `s` is in the block of point `s / 128`. -/
theorem covered (i : S8x4096x1024.Idx) :
    ∃ t : Fin cfg0.N, (cfg0.win 8).flush t = true ∧ i ∈ ((cfg0.win 8).blk t).view.set := by
  have hi0 : (i 0).val < 8 := (i 0).isLt
  have hi1 : (i 1).val < 4096 := (i 1).isLt
  have hi2 : (i 2).val < 1024 := (i 2).isLt
  obtain ⟨t, ht⟩ := block_onto ⟨(i 1).val / 128, by omega⟩
  have q0 : win0_8.index t (0 : Fin 3) = 0 := congrFun ht 0
  have q1 : win0_8.index t (1 : Fin 3) = (i 1).val / 128 := congrFun ht 1
  have q2 : win0_8.index t (2 : Fin 3) = 0 := congrFun ht 2
  refine ⟨t, flush0_8 t, (mem_block t i).2 fun a => ?_⟩
  match a with
  | ⟨0, _⟩ => show win0_8.index t (0 : Fin 3) * 8 ≤ (i 0).val ∧ (i 0).val < win0_8.index t (0 : Fin 3) * 8 + 8; omega
  | ⟨1, _⟩ =>
    show win0_8.index t (1 : Fin 3) * 128 ≤ (i 1).val ∧ (i 1).val < win0_8.index t (1 : Fin 3) * 128 + 128; omega
  | ⟨2, _⟩ =>
    show win0_8.index t (2 : Fin 3) * 1024 ≤ (i 2).val ∧ (i 2).val < win0_8.index t (2 : Fin 3) * 1024 + 1024; omega

/-- THE RESULT ARRAY after the run is `G` of the argument arrays. -/
theorem final (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_eq m c t) covered

/-- The kernel's run: it terminates without a fault, the result array ends at `G` of the arguments, and the arguments
    end unchanged. -/
theorem run : θ_run defs (onTc (τ := τ) (main (F := Ideal))) ⟨m, fun _ => 0, ρ⟩ fun r => ∀ c : Dev nD,
      r.2.mem ((c : Thread nD τ).loc main_v10) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.lean ====
/-
  AFT attention as a tiled kernel against its array-at-a-time reference: the two compute the same function on the
  extended reals.

  THE FUNCTION (Proof/AftRow.lean). For every time step `t`, batch row `b` and output feature `h`,

      out[b, t, h] = σ(q[b, t, h]) · ( Σ_k e[k, t, h] · v[k, t, h] ) / ( Σ_k e[k, t, h] ),     e = exp (κ + w),

  with `q`, `κ`, `v` the affine maps `x · Wᵀ + bias` for the query, key and value weights, `σ` the logistic function, and
  both sums running over the batch axis.

  THE REFERENCE (Proof/ReferenceRows.lean) computes exactly this, array at a time: three contractions plus broadcast
  biases, `1 / (1 + exp (-q))`, two reductions over the batch axis starting from zero, a quotient, a product.

  THE KERNEL (Proof/KernelBlock.lean, Proof/KernelWhole.lean) first transposes the weights and reshapes the biases to one
  row, then handles 128 time steps per grid point: per batch row a matrix product on a zero accumulator plus the bias row,
  two running sums over the batch rows that start at the zero splat, the quotient, and one store per batch row. Changes of
  float format are the identity on the extended reals. The only algebra between the two sides is that a sum of eight
  terms accumulated one by one from zero is their sum, and that a matrix product with the transposed weights contracts the
  same pairs as the reference's contraction: no distributivity, no cancellation — so the finiteness of the inputs is
  never used, and the precondition is not opened.

  The frames of the two kernels are their generated frame certificates; the reference's frame is its generated run with
  the result dropped; the idealized kernel is the kernel's own text (no rewrite was applied), so `preserves` is trivial.
-/
import proofs.«106952_j18657337934229_1_alg».proof.Defs
import proofs.«106952_j18657337934229_1_alg».proof.Proof.Gen.Kernel
import proofs.«106952_j18657337934229_1_alg».proof.Proof.Gen.Kernel.Skeleton
import proofs.«106952_j18657337934229_1_alg».proof.Proof.Gen.Kernel.Launch
import proofs.«106952_j18657337934229_1_alg».proof.Proof.Gen.Kernel.Points
import proofs.«106952_j18657337934229_1_alg».proof.Proof.Gen.Kernel.Frame
import proofs.«106952_j18657337934229_1_alg».proof.Proof.Gen.KernelIdeal
import proofs.«106952_j18657337934229_1_alg».proof.Proof.Gen.KernelIdeal.Skeleton
import proofs.«106952_j18657337934229_1_alg».proof.Proof.Gen.KernelIdeal.Launch
import proofs.«106952_j18657337934229_1_alg».proof.Proof.Gen.KernelIdeal.Points
import proofs.«106952_j18657337934229_1_alg».proof.Proof.Gen.KernelIdeal.Frame
import proofs.«106952_j18657337934229_1_alg».proof.Proof.Gen.ReferenceIdeal
import proofs.«106952_j18657337934229_1_alg».proof.Proof.Gen.Pre_finite_inputs
import proofs.«106952_j18657337934229_1_alg».proof.Proof.Gen.KernelIdeal.Value
import proofs.«106952_j18657337934229_1_alg».proof.Proof.Gen.ReferenceIdeal.Run
import proofs.«106952_j18657337934229_1_alg».proof.Proof.Gen.ReferenceIdeal.Read
import proofs.«106952_j18657337934229_1_alg».proof.Proof.ReferenceRows
import proofs.«106952_j18657337934229_1_alg».proof.Proof.KernelWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged (its result, here dropped, is read in `algebraic`). -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the arguments the kernel's result array ends at `Cert.Aft.G` of the arguments
    (`KernelIdeal.Whole.run`), and so does the reference's (`ReferenceIdeal.Rows.result_eq` over its generated run). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Rows.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
